-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S256x8 : Shape := ⟨2, ![256, 8]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S256x8 : S_.BroadcastsInDim S256x8 (![] : Fin 0 → Fin S256x8.rank)
  reducesTo_S256x8_S_d0_1 : S256x8.ReducesTo [0, 1] S_

variable [Facts]

def fn {F : FTy → Type} [FloatOps F] (main_arg0 : FVec F S16384x256 .f32) (main_arg1 : FVec F S256x8 .f32) (main_arg2 : FVec F S256x8 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S256x8 .f32 := Host.absf main_arg1
  let main_cst_0 : FVec F S_ .f32 := constant S_ .f32 0x7F800000#32
  let main_v5 : FVec F S256x8 .f32 := broadcastInDim S256x8 ![] bcast_S_S256x8 main_cst_0
  let main_v6 : IVec S256x8 1 := cmpf .olt main_v4 main_v5
  let main_c_1 : IVec S_ 1 := constantI S_ 1 1#1
  let main_v7 : IVec S_ 1 := (fun x v => Host.reduce IntOp.andi x v reducesTo_S256x8_S_d0_1 h_S_) main_v6 main_c_1
  let main_v8 : IVec S_ 1 := andi main_v3 main_v7
  let main_v9 : FVec F S256x8 .f32 := Host.absf main_arg2
  let main_cst_2 : FVec F S_ .f32 := constant S_ .f32 0x7F800000#32
  let main_v10 : FVec F S256x8 .f32 := broadcastInDim S256x8 ![] bcast_S_S256x8 main_cst_2
  let main_v11 : IVec S256x8 1 := cmpf .olt main_v9 main_v10
  let main_c_3 : IVec S_ 1 := constantI S_ 1 1#1
  let main_v12 : IVec S_ 1 := (fun x v => Host.reduce IntOp.andi x v reducesTo_S256x8_S_d0_1 h_S_) main_v11 main_c_3
  let main_v13 : IVec S_ 1 := andi main_v8 main_v12
  main_v13
-- ==== Kernel.lean ====
abbrev S16384x256 : Shape := ⟨2, ![16384, 256]⟩
abbrev S256x8 : Shape := ⟨2, ![256, 8]⟩
abbrev S16384x2048 : Shape := ⟨2, ![16384, 2048]⟩
abbrev S512x256 : Shape := ⟨2, ![512, 256]⟩
abbrev S512x2048 : Shape := ⟨2, ![512, 2048]⟩
abbrev S256x1 : Shape := ⟨2, ![256, 1]⟩
abbrev S256 : Shape := ⟨1, ![256]⟩
abbrev S1x256 : Shape := ⟨2, ![1, 256]⟩
abbrev S16384x8x256 : Shape := ⟨3, ![16384, 8, 256]⟩
abbrev S16384x256x8 : Shape := ⟨3, ![16384, 256, 8]⟩

abbrev nBuf : Space → Nat
  | .hbm => 7
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S256x8, .f32⟩
  | .hbm, ⟨2, _⟩ => ⟨S256x8, .f32⟩
  | .hbm, ⟨3, _⟩ => ⟨S16384x2048, .f32⟩
  | .hbm, ⟨4, _⟩ => ⟨S16384x8x256, .f32⟩
  | .hbm, ⟨5, _⟩ => ⟨S16384x256x8, .f32⟩
  | .hbm, ⟨6, _⟩ => ⟨S16384x2048, .f32⟩
  | .local _ .vmem, ⟨0, _⟩ => ⟨S512x256, .f32⟩
  | .local _ .vmem, ⟨1, _⟩ => ⟨S512x256, .f32⟩
  | .local _ .vmem, ⟨2, _⟩ => ⟨S256x8, .f32⟩
  | .local _ .vmem, ⟨3, _⟩ => ⟨S256x8, .f32⟩
  | .local _ .vmem, ⟨4, _⟩ => ⟨S512x2048, .f32⟩
  | .local _ .vmem, ⟨5, _⟩ => ⟨S512x2048, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S512x256_S512x256_0_0 : ∀ a, (![0, 0] : Fin 2 → Nat) a + S512x256.size a ≤ S512x256.size a
  h_S512x256 : 0 < S512x256.numel
  inb_S256x8_S256x8_0_0 : ∀ a, (![0, 0] : Fin 2 → Nat) a + S256x8.size a ≤ S256x8.size a
  h_S256x8 : 0 < S256x8.numel
  slices_S256x8_o0_0_S256x1 : S256x8.Slices ![0, 0] S256x1
  shapeCasts_S256x1_S256 : S256x1.ShapeCasts S256
  shapeCasts_S256_S1x256 : S256.ShapeCasts S1x256
  broadcasts_S1x256_S512x256 : S1x256.Broadcasts S512x256
  inb_S512x2048_S512x256_0_0 : ∀ a, (![0, 0] : Fin 2 → Nat) a + S512x256.size a ≤ S512x2048.size a
  slices_S256x8_o0_1_S256x1 : S256x8.Slices ![0, 1] S256x1
  inb_S512x2048_S512x256_0_256 : ∀ a, (![0, 256] : Fin 2 → Nat) a + S512x256.size a ≤ S512x2048.size a
  slices_S256x8_o0_2_S256x1 : S256x8.Slices ![0, 2] S256x1
  inb_S512x2048_S512x256_0_512 : ∀ a, (![0, 512] : Fin 2 → Nat) a + S512x256.size a ≤ S512x2048.size a
  slices_S256x8_o0_3_S256x1 : S256x8.Slices ![0, 3] S256x1
  inb_S512x2048_S512x256_0_768 : ∀ a, (![0, 768] : Fin 2 → Nat) a + S512x256.size a ≤ S512x2048.size a
  slices_S256x8_o0_4_S256x1 : S256x8.Slices ![0, 4] S256x1
  inb_S512x2048_S512x256_0_1024 : ∀ a, (![0, 1024] : Fin 2 → Nat) a + S512x256.size a ≤ S512x2048.size a
  slices_S256x8_o0_5_S256x1 : S256x8.Slices ![0, 5] S256x1
  inb_S512x2048_S512x256_0_1280 : ∀ a, (![0, 1280] : Fin 2 → Nat) a + S512x256.size a ≤ S512x2048.size a
  slices_S256x8_o0_6_S256x1 : S256x8.Slices ![0, 6] S256x1
  inb_S512x2048_S512x256_0_1536 : ∀ a, (![0, 1536] : Fin 2 → Nat) a + S512x256.size a ≤ S512x2048.size a
  slices_S256x8_o0_7_S256x1 : S256x8.Slices ![0, 7] S256x1
  inb_S512x2048_S512x256_0_1792 : ∀ a, (![0, 1792] : Fin 2 → Nat) a + S512x256.size a ≤ S512x2048.size a
  shapeCasts_S16384x2048_S16384x8x256 : S16384x2048.ShapeCasts S16384x8x256
  transposes_S16384x8x256_S16384x256x8_0_2_1 : S16384x8x256.Transposes [0, 2, 1] S16384x256x8
  shapeCasts_S16384x256x8_S16384x2048 : S16384x256x8.ShapeCasts S16384x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S16384x256.size a
  hwx0_0 : ∀ i : grid0.Coords, EltTy.bits .f32 = 32 ∨ (Rect.block (s := S16384x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x8.size a ≤ S256x8.size a
  hwx0_1 : ∀ i : grid0.Coords, EltTy.bits .f32 = 32 ∨ (Rect.block (s := S256x8) S256x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x8.size a ≤ S256x8.size a
  hwx0_2 : ∀ i : grid0.Coords, EltTy.bits .f32 = 32 ∨ (Rect.block (s := S256x8) S256x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .f32 = 32 ∨ (Rect.block (s := S16384x2048) S512x2048.size (cc0_transform_3 i) (hinb0_3 i)).WholeWords (EltTy.packing .f32)

variable [Facts₀]

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x256 : Shape := ⟨2, ![16384, 256]⟩
abbrev S256x8 : Shape := ⟨2, ![256, 8]⟩
abbrev S16384x256x1 : Shape := ⟨3, ![16384, 256, 1]⟩
abbrev S1x256x8 : Shape := ⟨3, ![1, 256, 8]⟩
abbrev S16384x256x8 : Shape := ⟨3, ![16384, 256, 8]⟩
abbrev S_ : Shape := ⟨0, ![]⟩
abbrev S16384x2048 : Shape := ⟨2, ![16384, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x8, .f32⟩
  | .hbm, ⟨2, _⟩ => ⟨S256x8, .f32⟩
  | .hbm, ⟨3, _⟩ => ⟨S16384x256x1, .f32⟩
  | .hbm, ⟨4, _⟩ => ⟨S1x256x8, .f32⟩
  | .hbm, ⟨5, _⟩ => ⟨S16384x256x8, .f32⟩
  | .hbm, ⟨6, _⟩ => ⟨S16384x256x8, .f32⟩
  | .hbm, ⟨7, _⟩ => ⟨S16384x256x8, .f32⟩
  | .hbm, ⟨8, _⟩ => ⟨S16384x256x8, .f32⟩
  | .hbm, ⟨9, _⟩ => ⟨S16384x256x8, .f32⟩
  | .hbm, ⟨10, _⟩ => ⟨S_, .f32⟩
  | .hbm, ⟨11, _⟩ => ⟨S256x8, .f32⟩
  | .hbm, ⟨12, _⟩ => ⟨S256x8, .f32⟩
  | .hbm, ⟨13, _⟩ => ⟨S256x8, .f32⟩
  | .hbm, ⟨14, _⟩ => ⟨S1x256x8, .f32⟩
  | .hbm, ⟨15, _⟩ => ⟨S16384x256x8, .f32⟩
  | .hbm, ⟨16, _⟩ => ⟨S16384x256x8, .f32⟩
  | .hbm, ⟨17, _⟩ => ⟨S16384x256x8, .f32⟩
  | .hbm, ⟨18, _⟩ => ⟨S16384x2048, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  bcast_S16384x256_S16384x256x1_0_1 : S16384x256.BroadcastsInDim S16384x256x1 (![0, 1] : Fin 2 → Fin S16384x256x1.rank)
  bcast_S256x8_S1x256x8_1_2 : S256x8.BroadcastsInDim S1x256x8 (![1, 2] : Fin 2 → Fin S1x256x8.rank)
  bcast_S16384x256x1_S16384x256x8_0_1_2 : S16384x256x1.BroadcastsInDim S16384x256x8 (![0, 1, 2] : Fin 3 → Fin S16384x256x8.rank)
  bcast_S1x256x8_S16384x256x8_0_1_2 : S1x256x8.BroadcastsInDim S16384x256x8 (![0, 1, 2] : Fin 3 → Fin S16384x256x8.rank)
  bcast_S_S256x8 : S_.BroadcastsInDim S256x8 (![] : Fin 0 → Fin S256x8.rank)
  shapeCasts_S16384x256x8_S16384x2048 : S16384x256x8.ShapeCasts S16384x2048

variable [Facts₀]

class Facts : Prop extends Facts₀ where

variable [Facts]
-- ==== Proof.LibPlanarInterleave.lean ====
/-
  General layout lemmas, for any element type, read at coordinates:

  * `column_vector_apply` — column `o` of an `[a, b]` array, cut out as `[a, 1]` and cast to the vector `[a]`:
    entry `j` is the array's at `(j, o)`.
  * `deinterleave_apply` — a `[B, M·I]` array read as `[B, M, I]`, its last two axes swapped, flattened again to
    `[B, I·M]`: the entry at column `n = j·M + i` (`j = n / M`, `i = n % M`) is the operand's at column `i·I + j`.
    This turns a planar arrangement (`M` slabs of `I` columns) into the interleaved one (`I` groups of `M`).
-/
import Idealize.ShloMosaic.Lib.ValueIdx
import Idealize.ShloMosaic.Lib.ValueLayout
import Idealize.ShloMosaic.Lib.Pipeline.Value

namespace Cert.LibPlanarInterleave

open Idealize.ShloMosaic Idealize.ShloMosaic.ValueIdx

variable {α : Type}

/-- Column `o` of an `[a, b]` array as a vector: cut `[a, 1]` at offsets `(0, o)`, cast to `[a]`, read at `j`. -/
theorem column_vector_apply {a b : ℕ} (v : (⟨2, ![a, b]⟩ : Shape).Idx → α) (o : ℕ) (ho : o < b)
    (hs : (⟨2, ![a, b]⟩ : Shape).Slices ![0, o] ⟨2, ![a, 1]⟩)
    (hc : (⟨2, ![a, 1]⟩ : Shape).ShapeCasts ⟨1, ![a]⟩) (j : Fin a) :
    shapeCast ⟨1, ![a]⟩ (extractStridedSlice ⟨2, ![a, 1]⟩ ![0, o] v hs) hc (ix1 j) = v (ix2 j (⟨o, ho⟩ : Fin b)) := by
  rw [shapeCast_apply _ hc (ix1 j) (ix2 j (0 : Fin 1))
    (by rw [Shape.rowMajor_val_two, Shape.rowMajor_val_one]; show j.val * 1 + 0 = j.val; omega)]
  exact slice2_axis1_apply o v hs j (0 : Fin 1) (⟨o, ho⟩ : Fin b) rfl

/-- The column `i·I + j` that column `n = j·M + i` comes from lies inside the `M·I` columns. -/
theorem source_column_lt {M I n : ℕ} (hn : n < M * I) : n % M * I + n / M < M * I := by
  have hM : 0 < M := Nat.pos_of_ne_zero fun h => by rw [h, Nat.zero_mul] at hn; exact absurd hn (Nat.not_lt_zero _)
  have h1 : n % M + 1 ≤ M := Nat.mod_lt n hM
  have h2 : n / M < I := Nat.div_lt_of_lt_mul hn
  have h3 : (n % M + 1) * I ≤ M * I := Nat.mul_le_mul_right I h1
  have h4 : (n % M + 1) * I = n % M * I + I := Nat.succ_mul _ _
  omega

/-- Planar to interleaved: read `[B, N]` (`N = M·I`) as `[B, M, I]`, swap the last two axes, flatten to `[B, N]`. -/
theorem deinterleave_apply {B M I N : ℕ} (hN : N = M * I) (P : (⟨2, ![B, N]⟩ : Shape).Idx → α)
    (h1 : (⟨2, ![B, N]⟩ : Shape).ShapeCasts ⟨3, ![B, M, I]⟩)
    (h2 : (⟨3, ![B, M, I]⟩ : Shape).Transposes [0, 2, 1] ⟨3, ![B, I, M]⟩)
    (h3 : (⟨3, ![B, I, M]⟩ : Shape).ShapeCasts ⟨2, ![B, N]⟩) (k : Fin B) (n : Fin N) :
    shapeCast ⟨2, ![B, N]⟩ (transpose ⟨3, ![B, I, M]⟩ [0, 2, 1] (shapeCast ⟨3, ![B, M, I]⟩ P h1) h2) h3 (ix2 k n)
      = P (ix2 k (⟨n.val % M * I + n.val / M, by subst hN; exact source_column_lt n.isLt⟩ : Fin N)) := by
  have hn : n.val < M * I := hN ▸ n.isLt
  have hM : 0 < M := Nat.pos_of_ne_zero fun h => by rw [h, Nat.zero_mul] at hn; exact absurd hn (Nat.not_lt_zero _)
  have hj : n.val / M < I := Nat.div_lt_of_lt_mul hn
  have hi : n.val % M < M := Nat.mod_lt _ hM
  have hdm : M * (n.val / M) + n.val % M = n.val := Nat.div_add_mod _ _
  rw [shapeCast_apply _ h3 (ix2 k n) (ix3 k (⟨n.val / M, hj⟩ : Fin I) (⟨n.val % M, hi⟩ : Fin M))
    (by rw [Shape.rowMajor_val_three, Shape.rowMajor_val_two]
        show (k.val * I + n.val / M) * M + n.val % M = k.val * N + n.val
        rw [congrArg (k.val * ·) hN]
        calc (k.val * I + n.val / M) * M + n.val % M
            = k.val * (M * I) + (M * (n.val / M) + n.val % M) := by ring
          _ = k.val * (M * I) + n.val := by rw [hdm])]
  rw [transpose_ix3_021_apply]
  exact shapeCast_apply P h1 _ _
    (by rw [Shape.rowMajor_val_two, Shape.rowMajor_val_three]
        show k.val * N + (n.val % M * I + n.val / M) = (k.val * M + n.val % M) * I + n.val / M
        rw [congrArg (k.val * ·) hN]; ring)

end Cert.LibPlanarInterleave
-- ==== Proof.Membership.lean ====
/-
  The Gaussian membership table, as one function of the three argument arrays.

  For a batch row `k`, an input feature `j` and a membership function `i` the value is
      μ(k, j, i) = exp( −(x[k,j] − c[j,i])² / ((2·σ[j,i])·σ[j,i]) )
  read on the extended reals with the conventions of the ideal instance (the quotient is `Ideal.div`, the
  exponential `Ideal.exp`, the literal `2` the value of its binary32 word). Both programs compute exactly this
  expression, operation for operation, so no law of arithmetic beyond `0 − y = −y` is needed and the inputs'
  finiteness plays no part.

  Two arrangements of the table over a `[16384, 2048]` array occur:
  * PLANAR: column `i·256 + j` holds μ(k, j, i) — eight slabs of 256 columns, one per membership function;
  * INTERLEAVED: column `j·8 + i` holds μ(k, j, i) — the row-major flattening of `[16384, 256, 8]`.
  Reading a planar array as `[16384, 8, 256]`, swapping the last two axes and flattening again gives the
  interleaved one (the general lemma `deinterleave_apply` of Proof/LibPlanarInterleave.lean, at 8 slabs of 256
  columns).
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«165930_j71038759076543_2_alg».proof.Proof.LibPlanarInterleave

noncomputable section

namespace Cert.Fuzzify

open Idealize.ShloMosaic Idealize.ShloMosaic.ValueIdx

/-- The shapes of the table's arrangements and of the arguments. -/
abbrev SX : Shape := ⟨2, ![16384, 256]⟩
abbrev SP : Shape := ⟨2, ![256, 8]⟩
abbrev SO : Shape := ⟨2, ![16384, 2048]⟩

/-- One membership value on the extended reals: `exp (−(x − c)² / ((2·σ)·σ))`. -/
def mu (x c s : EReal) : EReal :=
  Ideal.exp (Ideal.div (-((x - c) * (x - c))) (Ideal.ofBits .f32 0x40000000#32 * s * s))

/-- The planar arrangement: at `(k, n)` the membership function is `n / 256` and the feature `n % 256`. -/
def planar (x : SX.Idx → EReal) (c s : SP.Idx → EReal) : SO.Idx → EReal := fun i =>
  have h : (i 1).val < 2048 := (i 1).isLt
  mu (x (ix2 (⟨(i 0).val, (i 0).isLt⟩ : Fin 16384) (⟨(i 1).val % 256, by omega⟩ : Fin 256)))
    (c (ix2 (⟨(i 1).val % 256, by omega⟩ : Fin 256) (⟨(i 1).val / 256, by omega⟩ : Fin 8)))
    (s (ix2 (⟨(i 1).val % 256, by omega⟩ : Fin 256) (⟨(i 1).val / 256, by omega⟩ : Fin 8)))

/-- The interleaved arrangement: at `(k, n)` the feature is `n / 8` and the membership function `n % 8`. -/
def interleaved (x : SX.Idx → EReal) (c s : SP.Idx → EReal) : SO.Idx → EReal := fun i =>
  have h : (i 1).val < 2048 := (i 1).isLt
  mu (x (ix2 (⟨(i 0).val, (i 0).isLt⟩ : Fin 16384) (⟨(i 1).val / 8, by omega⟩ : Fin 256)))
    (c (ix2 (⟨(i 1).val / 8, by omega⟩ : Fin 256) (⟨(i 1).val % 8, by omega⟩ : Fin 8)))
    (s (ix2 (⟨(i 1).val / 8, by omega⟩ : Fin 256) (⟨(i 1).val % 8, by omega⟩ : Fin 8)))

/-- So the planar table, re-laid that way, is the interleaved table. -/
theorem deinterleave_planar (x : SX.Idx → EReal) (c s : SP.Idx → EReal)
    (h1 : SO.ShapeCasts ⟨3, ![16384, 8, 256]⟩)
    (h2 : (⟨3, ![16384, 8, 256]⟩ : Shape).Transposes [0, 2, 1] ⟨3, ![16384, 256, 8]⟩)
    (h3 : (⟨3, ![16384, 256, 8]⟩ : Shape).ShapeCasts SO) :
    shapeCast SO (transpose ⟨3, ![16384, 256, 8]⟩ [0, 2, 1] (shapeCast ⟨3, ![16384, 8, 256]⟩ (planar x c s) h1) h2) h3
      = interleaved x c s := by
  funext i
  obtain ⟨k, n, rfl⟩ : ∃ (k : Fin 16384) (n : Fin 2048), i = ix2 k n := ⟨i 0, i 1, eq_ix2 i⟩
  rw [Cert.LibPlanarInterleave.deinterleave_apply (M := 8) (I := 256) rfl]
  have hn : n.val < 2048 := n.isLt
  have e1 : (n.val % 8 * 256 + n.val / 8) % 256 = n.val / 8 := by omega
  have e2 : (n.val % 8 * 256 + n.val / 8) / 256 = n.val % 8 := by omega
  show mu _ _ _ = mu _ _ _
  simp only [e1, e2]

end Cert.Fuzzify

end
-- ==== Proof.RefMembership.lean ====
/-
  The reference computes the interleaved membership table.

  Its sixteen host operations broadcast `x` over the membership axis and the two parameter arrays over the batch
  axis, form `exp (−(x − c)² / ((2·σ)·σ))` entry by entry on `[16384, 256, 8]` and flatten the last two axes.
  Read at an output index `(k, n)` through the generated stage lemmas, the flattening sends `n` to the feature
  `n / 8` and the membership function `n % 8`, and each broadcast reads its operand at those coordinates: the
  entry is `mu (x[k, n/8]) (c[n/8, n%8]) (σ[n/8, n%8])`, the interleaved table's.
-/
import proofs.«165930_j71038759076543_2_alg».proof.Proof.Gen.ReferenceIdeal.Read
import proofs.«165930_j71038759076543_2_alg».proof.Proof.Membership

noncomputable section

namespace Cert.Fuzzify

open Idealize.ShloMosaic Idealize.ShloMosaic.ValueIdx
open Cert.ReferenceIdeal Cert.ReferenceIdeal.Read

/-- The reference's last stage, at the ideal instance, is the interleaved table of its three arguments. -/
theorem reference_eq (x0 : (⟨S16384x256, .f32⟩ : BufTy).Contents (Elt Ideal))
    (x1 x2 : (⟨S256x8, .f32⟩ : BufTy).Contents (Elt Ideal)) :
    val_main_v14 (F := Ideal) x0 x1 x2 = interleaved x0 x1 x2 := by
  funext i
  have h0 : (i 0).val < 16384 := (i 0).isLt
  have h1 : (i 1).val < 2048 := (i 1).isLt
  -- where the flattening and the broadcasts read the batch array,
  have ex : idx_main_v0 (idx_main_v2 (idx_main_v14 i))
      = ix2 (⟨(i 0).val, h0⟩ : Fin 16384) (⟨(i 1).val / 8, by omega⟩ : Fin 256) := by
    funext a; apply Fin.ext
    match a with
    | ⟨0, _⟩ => show ((i 0).val * 2048 + (i 1).val) / 2048 = (i 0).val; omega
    | ⟨1, _⟩ => show ((i 0).val * 2048 + (i 1).val) / 8 % 256 = (i 1).val / 8; omega
  -- the centres,
  have ec : idx_main_v1 (idx_main_v3 (idx_main_v14 i))
      = ix2 (⟨(i 1).val / 8, by omega⟩ : Fin 256) (⟨(i 1).val % 8, by omega⟩ : Fin 8) := by
    funext a; apply Fin.ext
    match a with
    | ⟨0, _⟩ => show ((i 0).val * 2048 + (i 1).val) / 8 % 256 = (i 1).val / 8; omega
    | ⟨1, _⟩ => show ((i 0).val * 2048 + (i 1).val) % 8 = (i 1).val % 8; omega
  -- and the widths.
  have es : idx_main_v10 (idx_main_v11 (idx_main_v14 i))
      = ix2 (⟨(i 1).val / 8, by omega⟩ : Fin 256) (⟨(i 1).val % 8, by omega⟩ : Fin 8) := by
    funext a; apply Fin.ext
    match a with
    | ⟨0, _⟩ => show ((i 0).val * 2048 + (i 1).val) / 8 % 256 = (i 1).val / 8; omega
    | ⟨1, _⟩ => show ((i 0).val * 2048 + (i 1).val) % 8 = (i 1).val % 8; omega
  rw [val_main_v14_apply, val_main_v13_apply, val_main_v12_apply, val_main_v6_apply, val_main_v5_apply,
    val_main_v4_apply, val_main_v2_apply, val_main_v0_apply, val_main_v3_apply, val_main_v1_apply,
    val_main_v11_apply, val_main_v10_apply, val_main_v9_apply, val_main_v8_apply, val_main_v7_apply,
    val_main_cst_apply, ex, ec, es]
  rfl

end Cert.Fuzzify

end
-- ==== Proof.BodyMembership.lean ====
/-
  What one call of the kernel body leaves in its output block.

  The body loads a block of 512 batch rows `x0 : [512, 256]` and the two whole parameter arrays `x1, x2 : [256, 8]`.
  For each of the eight membership functions `i` it cuts column `i` out of both parameter arrays, lays each as a
  row `[1, 256]`, broadcasts the row over the 512 batch rows, forms `exp ((0 − (x0 − c)²) / ((2·σ)·σ))` entry by
  entry, and stores the `[512, 256]` result at columns `i·256 … i·256 + 255` of the `[512, 2048]` output block.
  So the eight stores tile the block, and the block ends holding, at `(r, n)`,
      mu (x0[r, n % 256]) (x1[n % 256, n / 256]) (x2[n % 256, n / 256])
  — the planar arrangement over these 512 rows (`blockTable`). The only arithmetic fact used is `0 − y = −y` on
  the extended reals.
-/
import proofs.«165930_j71038759076543_2_alg».proof.Proof.Gen.KernelIdeal.Frame
import proofs.«165930_j71038759076543_2_alg».proof.Proof.Membership
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Fuzzify

open Idealize.ShloMosaic Idealize.ShloMosaic.ValueIdx
open Cert.KernelIdeal Cert.KernelIdeal.Gen

/-! ## The pieces of one slab -/

/-- Column `o` of a `[256, 8]` array, cut out as `[256, 1]` and read as a vector `[256]`: entry `j` is the array's
    at `(j, o)`. -/
theorem column_apply (v : FVec Ideal S256x8 .f32) (o : Nat) (ho : o < 8) (hs : S256x8.Slices ![0, o] S256x1)
    (hc : S256x1.ShapeCasts S256) (j : Fin 256) :
    shapeCast S256 (extractStridedSlice S256x1 ![0, o] v hs) hc (ix1 j) = v (ix2 j (⟨o, ho⟩ : Fin 8)) :=
  Cert.LibPlanarInterleave.column_vector_apply v o ho hs hc j

/-- One slab from the two columns as vectors: at `(r, j)` it is the membership value of `x0[r, j]` for the
    centre `cv[j]` and the width `sv[j]`. The subtraction from the zero word is the negation. -/
theorem slab_apply (x0 : FVec Ideal S512x256 .f32) (cv sv : FVec Ideal S256 .f32)
    (h1 : S256.ShapeCasts S1x256) (h2 : S1x256.Broadcasts S512x256) (r : Fin 512) (j : Fin 256) :
    exp (divf (subf (broadcast S512x256 (Scalar.ofBits (F := Ideal) .f32 0x00000000#32))
          (mulf (subf x0 (broadcastTo S512x256 (shapeCast S1x256 cv h1) h2))
            (subf x0 (broadcastTo S512x256 (shapeCast S1x256 cv h1) h2))))
        (broadcastTo S512x256 (mulf (mulf (broadcast S1x256 (Scalar.ofBits (F := Ideal) .f32 0x40000000#32))
          (shapeCast S1x256 sv h1)) (shapeCast S1x256 sv h1)) h2)) (ix2 r j)
      = mu (x0 (ix2 r j)) (cv (ix1 j)) (sv (ix1 j)) := by
  have hb : ∀ v : FVec Ideal S1x256 .f32, broadcastTo S512x256 v h2 (ix2 r j) = v (ix2 (0 : Fin 1) j) :=
    fun v => broadcastTo_1b_ab_apply v h2 r j
  have hc : ∀ v : FVec Ideal S256 .f32, shapeCast S1x256 v h1 (ix2 (0 : Fin 1) j) = v (ix1 j) :=
    fun v => shapeCast_a_1a_apply v h1 0 j
  show Ideal.exp (Ideal.div
      (Ideal.ofBits .f32 0x00000000#32
        - (x0 (ix2 r j) - broadcastTo S512x256 (shapeCast S1x256 cv h1) h2 (ix2 r j))
          * (x0 (ix2 r j) - broadcastTo S512x256 (shapeCast S1x256 cv h1) h2 (ix2 r j)))
      (broadcastTo S512x256 (mulf (mulf (broadcast S1x256 (Scalar.ofBits (F := Ideal) .f32 0x40000000#32))
          (shapeCast S1x256 sv h1)) (shapeCast S1x256 sv h1)) h2 (ix2 r j))) = _
  rw [hb, hb, hc]
  show Ideal.exp (Ideal.div _
      (Ideal.ofBits .f32 0x40000000#32 * shapeCast S1x256 sv h1 (ix2 (0 : Fin 1) j)
        * shapeCast S1x256 sv h1 (ix2 (0 : Fin 1) j))) = _
  rw [hc, Ideal.ofBits_zero_f32, zero_sub]
  rfl

/-! ## The eight slabs: membership function `i` is stored from column `i·256` -/

/-- The slab of membership function 0: at `(r, j)` it is `mu (x0[r, j]) (x1[j, 0]) (x2[j, 0])`. -/
theorem slab0 (x0 : Vec Ideal S512x256 .f32) (x1 x2 : Vec Ideal S256x8 .f32) (r : Fin 512) (j : Fin 256) :
    k0_pay2 x0 x1 x2 (ix2 r j)
      = mu (x0 (ix2 r j)) (x1 (ix2 j (⟨0, by omega⟩ : Fin 8))) (x2 (ix2 j (⟨0, by omega⟩ : Fin 8))) := by
  unfold k0_pay2
  refine (slab_apply x0 _ _ _ _ r j).trans ?_
  rw [column_apply _ 0 (by omega), column_apply _ 0 (by omega)]

/-- The slab of membership function 1: at `(r, j)` it is `mu (x0[r, j]) (x1[j, 1]) (x2[j, 1])`. -/
theorem slab1 (x0 : Vec Ideal S512x256 .f32) (x1 x2 : Vec Ideal S256x8 .f32) (r : Fin 512) (j : Fin 256) :
    k0_pay3 x0 x1 x2 (ix2 r j)
      = mu (x0 (ix2 r j)) (x1 (ix2 j (⟨1, by omega⟩ : Fin 8))) (x2 (ix2 j (⟨1, by omega⟩ : Fin 8))) := by
  unfold k0_pay3
  refine (slab_apply x0 _ _ _ _ r j).trans ?_
  rw [column_apply _ 1 (by omega), column_apply _ 1 (by omega)]

/-- The slab of membership function 2: at `(r, j)` it is `mu (x0[r, j]) (x1[j, 2]) (x2[j, 2])`. -/
theorem slab2 (x0 : Vec Ideal S512x256 .f32) (x1 x2 : Vec Ideal S256x8 .f32) (r : Fin 512) (j : Fin 256) :
    k0_pay5 x0 x2 (k0_pay4 x1) (ix2 r j)
      = mu (x0 (ix2 r j)) (x1 (ix2 j (⟨2, by omega⟩ : Fin 8))) (x2 (ix2 j (⟨2, by omega⟩ : Fin 8))) := by
  unfold k0_pay5 k0_pay4
  refine (slab_apply x0 _ _ _ _ r j).trans ?_
  rw [column_apply _ 2 (by omega), column_apply _ 2 (by omega)]

/-- The slab of membership function 3: at `(r, j)` it is `mu (x0[r, j]) (x1[j, 3]) (x2[j, 3])`. -/
theorem slab3 (x0 : Vec Ideal S512x256 .f32) (x1 x2 : Vec Ideal S256x8 .f32) (r : Fin 512) (j : Fin 256) :
    k0_pay6 x0 x1 x2 (ix2 r j)
      = mu (x0 (ix2 r j)) (x1 (ix2 j (⟨3, by omega⟩ : Fin 8))) (x2 (ix2 j (⟨3, by omega⟩ : Fin 8))) := by
  unfold k0_pay6
  refine (slab_apply x0 _ _ _ _ r j).trans ?_
  rw [column_apply _ 3 (by omega), column_apply _ 3 (by omega)]

/-- The slab of membership function 4: at `(r, j)` it is `mu (x0[r, j]) (x1[j, 4]) (x2[j, 4])`. -/
theorem slab4 (x0 : Vec Ideal S512x256 .f32) (x1 x2 : Vec Ideal S256x8 .f32) (r : Fin 512) (j : Fin 256) :
    k0_pay9 (k0_pay7 x2) (k0_pay8 x0 x1) (ix2 r j)
      = mu (x0 (ix2 r j)) (x1 (ix2 j (⟨4, by omega⟩ : Fin 8))) (x2 (ix2 j (⟨4, by omega⟩ : Fin 8))) := by
  unfold k0_pay9 k0_pay7 k0_pay8
  refine (slab_apply x0 _ _ _ _ r j).trans ?_
  rw [column_apply _ 4 (by omega), column_apply _ 4 (by omega)]

/-- The slab of membership function 5: at `(r, j)` it is `mu (x0[r, j]) (x1[j, 5]) (x2[j, 5])`. -/
theorem slab5 (x0 : Vec Ideal S512x256 .f32) (x1 x2 : Vec Ideal S256x8 .f32) (r : Fin 512) (j : Fin 256) :
    k0_pay10 x0 x1 x2 (ix2 r j)
      = mu (x0 (ix2 r j)) (x1 (ix2 j (⟨5, by omega⟩ : Fin 8))) (x2 (ix2 j (⟨5, by omega⟩ : Fin 8))) := by
  unfold k0_pay10
  refine (slab_apply x0 _ _ _ _ r j).trans ?_
  rw [column_apply _ 5 (by omega), column_apply _ 5 (by omega)]

/-- The slab of membership function 6: at `(r, j)` it is `mu (x0[r, j]) (x1[j, 6]) (x2[j, 6])`. -/
theorem slab6 (x0 : Vec Ideal S512x256 .f32) (x1 x2 : Vec Ideal S256x8 .f32) (r : Fin 512) (j : Fin 256) :
    k0_pay11 x0 x1 x2 (ix2 r j)
      = mu (x0 (ix2 r j)) (x1 (ix2 j (⟨6, by omega⟩ : Fin 8))) (x2 (ix2 j (⟨6, by omega⟩ : Fin 8))) := by
  unfold k0_pay11
  refine (slab_apply x0 _ _ _ _ r j).trans ?_
  rw [column_apply _ 6 (by omega), column_apply _ 6 (by omega)]

/-- The slab of membership function 7: at `(r, j)` it is `mu (x0[r, j]) (x1[j, 7]) (x2[j, 7])`. -/
theorem slab7 (x0 : Vec Ideal S512x256 .f32) (x1 x2 : Vec Ideal S256x8 .f32) (r : Fin 512) (j : Fin 256) :
    k0_pay1 x0 x2 (k0_pay12 x1) (ix2 r j)
      = mu (x0 (ix2 r j)) (x1 (ix2 j (⟨7, by omega⟩ : Fin 8))) (x2 (ix2 j (⟨7, by omega⟩ : Fin 8))) := by
  unfold k0_pay1 k0_pay12
  refine (slab_apply x0 _ _ _ _ r j).trans ?_
  rw [column_apply _ 7 (by omega), column_apply _ 7 (by omega)]

/-! ## The block -/

/-- The planar table over one block of 512 batch rows, from the block of `x` and the two parameter arrays. -/
def blockTable (x0 : FVec Ideal S512x256 .f32) (x1 x2 : FVec Ideal S256x8 .f32) : S512x2048.Idx → EReal := fun y =>
  have h : (y 1).val < 2048 := (y 1).isLt
  mu (x0 (ix2 (⟨(y 0).val, (y 0).isLt⟩ : Fin 512) (⟨(y 1).val % 256, by omega⟩ : Fin 256)))
    (x1 (ix2 (⟨(y 1).val % 256, by omega⟩ : Fin 256) (⟨(y 1).val / 256, by omega⟩ : Fin 8)))
    (x2 (ix2 (⟨(y 1).val % 256, by omega⟩ : Fin 256) (⟨(y 1).val / 256, by omega⟩ : Fin 8)))

/-- A `[512, 256]` payload that is slab `o`, stored from column `o·256`, agrees with the block's table under its
    rectangle: the rectangle sends `(r, j)` to `(r, o·256 + j)`, whose quotient and remainder by 256 are `o` and `j`. -/
theorem piece_apply (x0 : FVec Ideal S512x256 .f32) (x1 x2 : FVec Ideal S256x8 .f32) (o : Nat) (ho : o < 8)
    (off : Nat) (hoff : off = o * 256)
    (inb : ∀ a, (![0, off] : Fin 2 → Nat) a + S512x256.size a ≤ S512x2048.size a)
    (w : FVec Ideal S512x256 .f32)
    (hw : ∀ (r : Fin 512) (j : Fin 256),
      w (ix2 r j) = mu (x0 (ix2 r j)) (x1 (ix2 j (⟨o, ho⟩ : Fin 8))) (x2 (ix2 j (⟨o, ho⟩ : Fin 8))))
    (x : S512x256.Idx) :
    w x = blockTable x0 x1 x2 ((Rect.unit (s := S512x2048) ![0, off] S512x256.size inb).emb x) := by
  subst hoff
  obtain ⟨r, j, rfl⟩ : ∃ (r : Fin 512) (j : Fin 256), x = ix2 r j := ⟨x 0, x 1, eq_ix2 x⟩
  rw [hw]
  have hj : j.val < 256 := j.isLt
  have e0 : ((Rect.unit (s := S512x2048) ![0, o * 256] S512x256.size inb).emb (ix2 r j) 0).val = r.val := by
    show 0 + 1 * r.val = r.val; omega
  have e1 : ((Rect.unit (s := S512x2048) ![0, o * 256] S512x256.size inb).emb (ix2 r j) 1).val = o * 256 + j.val := by
    show o * 256 + 1 * j.val = o * 256 + j.val; omega
  have e2 : (o * 256 + j.val) % 256 = j.val := by omega
  have e3 : (o * 256 + j.val) / 256 = o := by omega
  unfold blockTable
  simp only [e0, e1, e2, e3]

theorem zero_offsets : (![0, 0] : Fin 2 → Nat) = fun _ => 0 := funext fun a => by fin_cases a <;> rfl

/-- What the body leaves in the output block is the block's table: each of the eight stored pieces agrees with it
    under its rectangle, and the pieces cover the block. -/
theorem block_eq (x0 : Vec Ideal S512x256 .f32) (x1 x2 : Vec Ideal S256x8 .f32) :
    out0_3 x0 x1 x2 = blockTable x0 x1 x2 := by
  unfold out0_3
  simp only [View.ld_unit_zero (S := S512x256) zero_offsets, View.ld_unit_zero (S := S256x8) zero_offsets]
  funext y
  refine View.canon_apply_of_pieces (Val := Elt Ideal) (blockTable x0 x1 x2) _ ?_ y (cover0_3 _ _ _ _ _ _ _ _ y)
  intro p hp
  simp only [List.mem_cons, List.mem_nil_iff, or_false] at hp
  rcases hp with rfl | rfl | rfl | rfl | rfl | rfl | rfl | rfl
  · intro x; exact piece_apply x0 x1 x2 7 (by omega) 1792 rfl Cert.KernelIdeal.Facts₀.inb_S512x2048_S512x256_0_1792 _ (slab7 x0 x1 x2) x
  · intro x; exact piece_apply x0 x1 x2 6 (by omega) 1536 rfl Cert.KernelIdeal.Facts₀.inb_S512x2048_S512x256_0_1536 _ (slab6 x0 x1 x2) x
  · intro x; exact piece_apply x0 x1 x2 5 (by omega) 1280 rfl Cert.KernelIdeal.Facts₀.inb_S512x2048_S512x256_0_1280 _ (slab5 x0 x1 x2) x
  · intro x; exact piece_apply x0 x1 x2 4 (by omega) 1024 rfl Cert.KernelIdeal.Facts₀.inb_S512x2048_S512x256_0_1024 _ (slab4 x0 x1 x2) x
  · intro x; exact piece_apply x0 x1 x2 3 (by omega) 768 rfl Cert.KernelIdeal.Facts₀.inb_S512x2048_S512x256_0_768 _ (slab3 x0 x1 x2) x
  · intro x; exact piece_apply x0 x1 x2 2 (by omega) 512 rfl Cert.KernelIdeal.Facts₀.inb_S512x2048_S512x256_0_512 _ (slab2 x0 x1 x2) x
  · intro x; exact piece_apply x0 x1 x2 1 (by omega) 256 rfl Cert.KernelIdeal.Facts₀.inb_S512x2048_S512x256_0_256 _ (slab1 x0 x1 x2) x
  · intro x; exact piece_apply x0 x1 x2 0 (by omega) 0 rfl Cert.KernelIdeal.Facts₀.inb_S512x2048_S512x256_0_0 _ (slab0 x0 x1 x2) x

end Cert.Fuzzify

end
-- ==== Proof.PlanarArray.lean ====
/-
  The array the kernel's region leaves: the planar membership table.

  The grid has 32 points; point `t` stages rows `512·t … 512·t + 511` of `x`, the two parameter arrays whole, and
  writes back rows `512·t … 512·t + 511` of the `[16384, 2048]` output (all 2048 columns). The body leaves the
  block's table in the output block (`block_eq`), and a block entry `(r, n)` sits at the array's `(512·t + r, n)`,
  where the planar table reads `x` at row `512·t + r` — the row the input block holds at `r` — and the parameters at
  `(n % 256, n / 256)`: so what each point writes back is its block of ONE whole-array function, the planar table
  of the three arguments. The 32 row blocks cover the array (row `k` is in block `k / 512`), hence the array ends
  holding that table.
-/
import proofs.«165930_j71038759076543_2_alg».proof.Proof.BodyMembership
import Idealize.ShloMosaic.Lib.Pipeline.Value

set_option maxRecDepth 16384

noncomputable section

namespace Cert.Fuzzify

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The index maps, decided over the 32 points: the batch block moves with the output block along the rows, the
    parameter arrays and the column coordinate stay at block 0. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 31 ∧ win0_3.index t (1 : Fin 2) = 0 :=
  (by decide +kernel : ∀ t : Fin grid0.N, _)

/-- Every row block is some point's. -/
theorem index_onto : ∀ q : Fin 32, ∃ t : Fin cfg0.N, win0_3.index t = ![q.val, 0] :=
  (by decide +kernel : ∀ q : Fin 32, ∃ t : Fin grid0.N, win0_3.index t = ![q.val, 0])

/-- What point `t` writes back is block `t` of the planar table of the argument arrays as the region finds them. -/
theorem flushed_eq (c : Dev nD) (t : Fin cfg0.N) :
    (dats m 0 c).flushed 3 t
      = ((cfg0.win 3).blk t).view.read (Elt Ideal) (planar (V m c main_arg0) (V m c main_arg1) (V m c main_arg2)) := by
  show (cfg0.win 3).cut (grid0.coords t) ((dats m 0 c).after 3 t) = _
  rw [after0_3, block_eq (iblk m c 0 t) (iblk m c 1 t) (iblk m c 2 t)]
  obtain ⟨e0, e1, e2, e3, e4, e5, e6, e7⟩ := index_facts t
  funext y
  have hy0 : (y 0).val < 512 := (y 0).isLt
  have hy1 : (y 1).val < 2048 := (y 1).isLt
  -- where block entry `y` sits in the array
  have E0 : ((((cfg0.win 3).blk t).view.emb y) 0).val = win0_3.index t (0 : Fin 2) * 512 + (y 0).val := by
    show win0_3.index t (0 : Fin 2) * 512 + 1 * (y 0).val = _; omega
  have E1 : ((((cfg0.win 3).blk t).view.emb y) 1).val = (y 1).val := by
    show win0_3.index t (1 : Fin 2) * 2048 + 1 * (y 1).val = _; omega
  -- the batch block at `(r, j)` is `x` at the block's row
  have hx : ∀ (r : Fin 512) (j : Fin 256) (R : Fin 16384), R.val = win0_3.index t (0 : Fin 2) * 512 + r.val →
      iblk m c 0 t (ix2 r j) = V m c main_arg0 (ix2 R j) := by
    intro r j R hR
    show V m c main_arg0 (((cfg0.win 0).blk t).view.emb (ix2 r j)) = V m c main_arg0 (ix2 R j)
    refine congrArg _ (funext fun a => Fin.ext ?_)
    match a with
    | ⟨0, _⟩ => show win0_0.index t (0 : Fin 2) * 512 + 1 * r.val = R.val; omega
    | ⟨1, _⟩ => show win0_0.index t (1 : Fin 2) * 256 + 1 * j.val = j.val; omega
  -- the parameter blocks are the parameter arrays
  have hc : ∀ (j : Fin 256) (k : Fin 8), iblk m c 1 t (ix2 j k) = V m c main_arg1 (ix2 j k) := by
    intro j k
    show V m c main_arg1 (((cfg0.win 1).blk t).view.emb (ix2 j k)) = V m c main_arg1 (ix2 j k)
    refine congrArg _ (funext fun a => Fin.ext ?_)
    match a with
    | ⟨0, _⟩ => show win0_1.index t (0 : Fin 2) * 256 + 1 * j.val = j.val; omega
    | ⟨1, _⟩ => show win0_1.index t (1 : Fin 2) * 8 + 1 * k.val = k.val; omega
  have hs : ∀ (j : Fin 256) (k : Fin 8), iblk m c 2 t (ix2 j k) = V m c main_arg2 (ix2 j k) := by
    intro j k
    show V m c main_arg2 (((cfg0.win 2).blk t).view.emb (ix2 j k)) = V m c main_arg2 (ix2 j k)
    refine congrArg _ (funext fun a => Fin.ext ?_)
    match a with
    | ⟨0, _⟩ => show win0_2.index t (0 : Fin 2) * 256 + 1 * j.val = j.val; omega
    | ⟨1, _⟩ => show win0_2.index t (1 : Fin 2) * 8 + 1 * k.val = k.val; omega
  show blockTable (iblk m c 0 t) (iblk m c 1 t) (iblk m c 2 t) y
    = planar (V m c main_arg0) (V m c main_arg1) (V m c main_arg2) (((cfg0.win 3).blk t).view.emb y)
  unfold blockTable planar
  show mu _ _ _ = mu _ _ _
  rw [hx _ _ (⟨((((cfg0.win 3).blk t).view.emb y) 0).val, ((((cfg0.win 3).blk t).view.emb y) 0).isLt⟩ : Fin 16384)
    (by show ((((cfg0.win 3).blk t).view.emb y) 0).val = _ + (y 0).val; exact E0), hc, hs]
  simp only [E1]

/-- An index of the array is in point `t`'s block iff each coordinate is in the block's range on its axis. -/
theorem mem_block (t : Fin cfg0.N) (i : S16384x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v0).slice (win0_3.rect t)).set ↔ _
  rw [View.set_slice_whole, Rect.mem_set_unit]
  exact Iff.rfl

/-- Every index of the array is in some writing point's block: row `k` is in row block `k / 512`. -/
theorem covered (i : S16384x2048.Idx) :
    ∃ t : Fin cfg0.N, (cfg0.win 3).flush t = true ∧ i ∈ ((cfg0.win 3).blk t).view.set := by
  have hi0 : (i 0).val < 16384 := (i 0).isLt
  have hi1 : (i 1).val < 2048 := (i 1).isLt
  obtain ⟨t, ht⟩ := index_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 2048 ≤ (i 1).val ∧ (i 1).val < win0_3.index t (1 : Fin 2) * 2048 + 2048
    omega

/-- The output array after the region: the planar table of the argument arrays. -/
theorem planar_array (c : Dev nD) :
    (dats m 0 c).arrAt 3 cfg0.N = planar (V m c main_arg0) (V m c main_arg1) (V m c main_arg2) :=
  (dats m 0 c).arrAt_eq_of_cover 3 _ (fun t _ => flushed_eq m c t) covered

end Cert.Fuzzify

end
-- ==== Proof.KernelTable.lean ====
/-
  The kernel program's result: the interleaved membership table.

  After the region the output array holds the planar table (`planar_array`). The three host lines that follow read
  it as `[16384, 8, 256]`, swap the last two axes and flatten to `[16384, 2048]`: column `j·8 + i` of the result is
  column `i·256 + j` of the planar array (`deinterleave_planar`), so the program's result is the interleaved table
  of its three arguments, which the run leaves unchanged.
-/
import proofs.«165930_j71038759076543_2_alg».proof.Proof.PlanarArray
import Idealize.ShloMosaic.Lib.StableHlo.Run

set_option maxRecDepth 16384

noncomputable section

namespace Cert.Fuzzify

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The result buffer after the host lines that follow the region. -/
theorem tail_eq (c : Dev nD) :
    Pipeline.afterTail₀ cfgs (dats m) 0 (V0 m) [hostOps1] c main_v3
      = interleaved (m ((c : Thread nD τ).loc main_arg0)) (m ((c : Thread nD τ).loc main_arg1))
          (m ((c : Thread nD τ).loc main_arg2)) := by
  unfold Pipeline.afterTail₀
  show StableHlo.after hostOps1 _ (Proc.devRef .tc main_v3) = _
  after_results
  rw [Pipeline.withArrays_arr spec0 launch0.win.arr_inj c _ _ 3, planar_array m c]
  exact deinterleave_planar _ _ _ _ _ _

/-- The result buffer is an unscoped buffer that is no window's array, so the run's post speaks of it. -/
theorem result_bypasses : main_v3 ∈ Pipeline.restRefs sig (cfgs 0).spec :=
  Pipeline.mem_restRefs_of main_v3 rfl (by decide)

/-- On every device, from any memory with zero counters: every weakly fair execution of the kernel program terminates
    with its result at the interleaved table of the three arguments, and the arguments unchanged. -/
theorem kernel_run : θ_run defs (onTc (τ := τ) (main (F := Ideal))) ⟨m, fun _ => 0, ρ⟩ fun r => ∀ c : Dev nD,
      r.2.mem ((c.tc : Thread nD τ).loc main_v3)
        = interleaved (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v3 result_bypasses).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Fuzzify

end
-- ==== Proof.lean ====
/-
  Gaussian membership functions: the tiled kernel against the broadcast reference, on the extended reals.

  Both programs compute, for a batch row `k`, a feature `j` and a membership function `i`,
      μ(k, j, i) = exp( −(x[k,j] − c[j,i])² / ((2·σ[j,i])·σ[j,i]) )
  and return it at column `j·8 + i` of a `[16384, 2048]` array (the interleaved table, Proof/Membership.lean).
  * The reference broadcasts the three arrays to `[16384, 256, 8]`, computes entry by entry and flattens
    (Proof/RefMembership.lean, over the generated run and its stage lemmas).
  * The kernel works on 32 blocks of 512 batch rows. For each membership function it stores a `[512, 256]` slab at
    columns `i·256 …` of the output block (Proof/BodyMembership.lean), so the region leaves the PLANAR table,
    column `i·256 + j` (Proof/PlanarArray.lean); the host lines after the region read it as `[16384, 8, 256]`, swap
    the last two axes and flatten, which is the interleaved table (Proof/KernelTable.lean).
  The two sides apply the same operations in the same order to the same entries; the kernel writes the negation as
  `0 − y`, which is `−y` on the extended reals, infinities included. No other law is used, so the precondition
  (finite inputs) is never opened. The idealization rewrote nothing, so `preserves` is `True`; the three frames are
  the generated ones (the reference's is its generated run with the result dropped).
-/
import proofs.«165930_j71038759076543_2_alg».proof.Defs
import proofs.«165930_j71038759076543_2_alg».proof.Proof.Gen.Kernel
import proofs.«165930_j71038759076543_2_alg».proof.Proof.Gen.Kernel.Skeleton
import proofs.«165930_j71038759076543_2_alg».proof.Proof.Gen.Kernel.Launch
import proofs.«165930_j71038759076543_2_alg».proof.Proof.Gen.Kernel.Points
import proofs.«165930_j71038759076543_2_alg».proof.Proof.Gen.Kernel.Frame
import proofs.«165930_j71038759076543_2_alg».proof.Proof.Gen.KernelIdeal
import proofs.«165930_j71038759076543_2_alg».proof.Proof.Gen.KernelIdeal.Skeleton
import proofs.«165930_j71038759076543_2_alg».proof.Proof.Gen.KernelIdeal.Launch
import proofs.«165930_j71038759076543_2_alg».proof.Proof.Gen.KernelIdeal.Points
import proofs.«165930_j71038759076543_2_alg».proof.Proof.Gen.KernelIdeal.Frame
import proofs.«165930_j71038759076543_2_alg».proof.Proof.Gen.ReferenceIdeal
import proofs.«165930_j71038759076543_2_alg».proof.Proof.Gen.ReferenceIdeal.Run
import proofs.«165930_j71038759076543_2_alg».proof.Proof.Gen.ReferenceIdeal.Read
import proofs.«165930_j71038759076543_2_alg».proof.Proof.Gen.Pre_finite_inputs
import proofs.«165930_j71038759076543_2_alg».proof.Proof.RefMembership
import proofs.«165930_j71038759076543_2_alg».proof.Proof.KernelTable
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the three arguments both programs end with the interleaved membership table of
    those arguments: the kernel by `kernel_run`, the reference by its run and `reference_eq`. -/
theorem algebraic : Cert.algebraic_KernelIdeal_ReferenceIdeal := by
  intro m ρ m' ρ' _ hagree
  refine ⟨_, Cert.Fuzzify.kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, Cert.Fuzzify.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
